-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S4096x128 : Shape := ⟨2, ![4096, 128]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S4096x128 : S_.BroadcastsInDim S4096x128 (![] : Fin 0 → Fin S4096x128.rank)
  reducesTo_S4096x128_S_d0_1 : S4096x128.ReducesTo [0, 1] S_

variable [Facts]

def fn {F : FTy → Type} [FloatOps F] (main_arg0 : FVec F S8192x128 .f32) (main_arg1 : FVec F S4096x128 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S4096x128 .f32 := Host.absf main_arg1
  let main_cst_0 : FVec F S_ .f32 := constant S_ .f32 0x7F800000#32
  let main_v5 : FVec F S4096x128 .f32 := broadcastInDim S4096x128 ![] bcast_S_S4096x128 main_cst_0
  let main_v6 : IVec S4096x128 1 := cmpf .olt main_v4 main_v5
  let main_c_1 : IVec S_ 1 := constantI S_ 1 1#1
  let main_v7 : IVec S_ 1 := (fun x v => Host.reduce IntOp.andi x v reducesTo_S4096x128_S_d0_1 h_S_) main_v6 main_c_1
  let main_v8 : IVec S_ 1 := andi main_v3 main_v7
  main_v8
-- ==== Kernel.lean ====
abbrev S8192x128 : Shape := ⟨2, ![8192, 128]⟩
abbrev S4096x128 : Shape := ⟨2, ![4096, 128]⟩
abbrev S8192x4096 : Shape := ⟨2, ![8192, 4096]⟩
abbrev S512x128 : Shape := ⟨2, ![512, 128]⟩
abbrev S512x4096 : Shape := ⟨2, ![512, 4096]⟩
abbrev S512 : Shape := ⟨1, ![512]⟩
abbrev S512x1 : Shape := ⟨2, ![512, 1]⟩
abbrev S4096 : Shape := ⟨1, ![4096]⟩
abbrev S1x4096 : Shape := ⟨2, ![1, 4096]⟩

abbrev nBuf : Space → Nat
  | .hbm => 3
  | .vmem => 5
  | .smem => 0
  | _ => 0

abbrev bufTy : (tb : Table) → Fin (tcTables nBuf tb) → BufTy
  | .hbm, ⟨0, _⟩ => ⟨S8192x128, .f32⟩
  | .hbm, ⟨1, _⟩ => ⟨S4096x128, .f32⟩
  | .hbm, ⟨2, _⟩ => ⟨S8192x4096, .f32⟩
  | .local _ .vmem, ⟨0, _⟩ => ⟨S512x128, .f32⟩
  | .local _ .vmem, ⟨1, _⟩ => ⟨S512x128, .f32⟩
  | .local _ .vmem, ⟨2, _⟩ => ⟨S4096x128, .f32⟩
  | .local _ .vmem, ⟨3, _⟩ => ⟨S512x4096, .f32⟩
  | .local _ .vmem, ⟨4, _⟩ => ⟨S512x4096, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S512x128_S512x128_0_0 : ∀ a, (![0, 0] : Fin 2 → Nat) a + S512x128.size a ≤ S512x128.size a
  h_S512x128 : 0 < S512x128.numel
  inb_S4096x128_S4096x128_0_0 : ∀ a, (![0, 0] : Fin 2 → Nat) a + S4096x128.size a ≤ S4096x128.size a
  h_S4096x128 : 0 < S4096x128.numel
  reduces_S512x128_S512 : S512x128.Reduces [1] S512
  shapeCasts_S512_S512x1 : S512.ShapeCasts S512x1
  reduces_S4096x128_S4096 : S4096x128.Reduces [1] S4096
  bitsLt_bf16_f32 : FTy.bits .bf16 < FTy.bits .f32
  shapeCasts_S4096_S1x4096 : S4096.ShapeCasts S1x4096
  broadcasts_S512x1_S512x4096 : S512x1.Broadcasts S512x4096
  broadcasts_S1x4096_S512x4096 : S1x4096.Broadcasts S512x4096
  inb_S512x4096_S512x4096_0_0 : ∀ a, (![0, 0] : Fin 2 → Nat) a + S512x4096.size a ≤ S512x4096.size a
  h_S512x4096 : 0 < S512x4096.numel
  dot_S512x128_S4096x128_S512x4096_1_1_0_0_n_n_wf : DotDims.WF S512x128 S4096x128 S512x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S8192x128.size a
  hwx0_0 : ∀ i : grid0.Coords, EltTy.bits .f32 = 32 ∨ (Rect.block (s := S8192x128) S512x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S4096x128.size a
  hwx0_1 : ∀ i : grid0.Coords, EltTy.bits .f32 = 32 ∨ (Rect.block (s := S4096x128) S4096x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x4096.size a ≤ S8192x4096.size a
  hwx0_2 : ∀ i : grid0.Coords, EltTy.bits .f32 = 32 ∨ (Rect.block (s := S8192x4096) S512x4096.size (cc0_transform_2 i) (hinb0_2 i)).WholeWords (EltTy.packing .f32)

variable [Facts₀]

def dot_S512x128_S4096x128_S512x4096_1_1_0_0_n_n : DotDims S512x128 S4096x128 S512x4096 where
  lhsContracting := [1]
  rhsContracting := [1]
  lhsNonContracting := [0]
  rhsNonContracting := [0]
  lhsBatch := []
  rhsBatch := []
  wf := dot_S512x128_S4096x128_S512x4096_1_1_0_0_n_n_wf

abbrev win0_0 : Pipeline.Window sig grid0 :=
  Pipeline.Window.ofSpec (Memref.whole main_arg0) S512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x128 : Shape := ⟨2, ![8192, 128]⟩
abbrev S4096x128 : Shape := ⟨2, ![4096, 128]⟩
abbrev S_ : Shape := ⟨0, ![]⟩
abbrev S8192 : Shape := ⟨1, ![8192]⟩
abbrev S8192x1 : Shape := ⟨2, ![8192, 1]⟩
abbrev S4096 : Shape := ⟨1, ![4096]⟩
abbrev S8192x4096 : Shape := ⟨2, ![8192, 4096]⟩
abbrev S1x4096 : Shape := ⟨2, ![1, 4096]⟩

abbrev nBuf : Space → Nat
  | .hbm => 18
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S4096x128, .f32⟩
  | .hbm, ⟨2, _⟩ => ⟨S8192x128, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S4096x128, .f32⟩
  | .hbm, ⟨7, _⟩ => ⟨S_, .f32⟩
  | .hbm, ⟨8, _⟩ => ⟨S4096, .f32⟩
  | .hbm, ⟨9, _⟩ => ⟨S8192x4096, .f32⟩
  | .hbm, ⟨10, _⟩ => ⟨S1x4096, .f32⟩
  | .hbm, ⟨11, _⟩ => ⟨S8192x4096, .f32⟩
  | .hbm, ⟨12, _⟩ => ⟨S8192x4096, .f32⟩
  | .hbm, ⟨13, _⟩ => ⟨S8192x4096, .f32⟩
  | .hbm, ⟨14, _⟩ => ⟨S_, .f32⟩
  | .hbm, ⟨15, _⟩ => ⟨S8192x4096, .f32⟩
  | .hbm, ⟨16, _⟩ => ⟨S8192x4096, .f32⟩
  | .hbm, ⟨17, _⟩ => ⟨S8192x4096, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  reducesTo_S4096x128_S4096_d1 : S4096x128.ReducesTo [1] S4096
  bcast_S4096_S1x4096_1 : S4096.BroadcastsInDim S1x4096 (![1] : Fin 1 → Fin S1x4096.rank)
  bcast_S8192x1_S8192x4096_0_1 : S8192x1.BroadcastsInDim S8192x4096 (![0, 1] : Fin 2 → Fin S8192x4096.rank)
  bcast_S1x4096_S8192x4096_0_1 : S1x4096.BroadcastsInDim S8192x4096 (![0, 1] : Fin 2 → Fin S8192x4096.rank)
  bcast_S_S8192x4096 : S_.BroadcastsInDim S8192x4096 (![] : Fin 0 → Fin S8192x4096.rank)
  dot_S8192x128_S4096x128_S8192x4096_1_1_0_0_n_n_wf : DotDims.WF S8192x128 S4096x128 S8192x4096 [1] [1] [0] [0] [] []

variable [Facts₀]

def dot_S8192x128_S4096x128_S8192x4096_1_1_0_0_n_n : DotDims S8192x128 S4096x128 S8192x4096 where
  lhsContracting := [1]
  rhsContracting := [1]
  lhsNonContracting := [0]
  rhsNonContracting := [0]
  lhsBatch := []
  rhsBatch := []
  wf := dot_S8192x128_S4096x128_S8192x4096_1_1_0_0_n_n_wf

class Facts : Prop extends Facts₀ where

variable [Facts]
-- ==== Proof.SqDist.lean ====
/-
  The squared-distance table of two families of vectors in 128 coordinates.

  For a family of row vectors `a` (one per `p`) and a family `w` (one per `q`), the entry at `(p, q)` is
  `‖a_p‖² + ‖w_q‖² − 2 · ⟨a_p, w_q⟩`: the squared Euclidean distance `‖a_p − w_q‖²` with the square expanded.
  It is stated on the extended reals exactly as both programs compute it — the two squared norms are added first and
  the doubled inner product is subtracted last — so that no law of arithmetic beyond `0 + x = x` is ever needed
  to meet it, and nothing has to be assumed finite. The factor two is kept as the binary word both programs carry.
-/
import Idealize.ShloMosaic.PureOps.Ideal
import Idealize.ShloMosaic.Lib.ValueIdx

noncomputable section

open scoped BigOperators
open Idealize.ShloMosaic Idealize.ShloMosaic.ValueIdx

namespace Cert.SqDist

/-- The entry at `(p, q)`: the squared norm of row `p` of `a`, plus the squared norm of row `q` of `w`, minus twice
    their inner product. The number of rows of each family is a parameter: the same expression is read once on a block
    of rows and once on the whole array. -/
def entry {A B : Nat} (a : FVec Ideal ⟨2, ![A, 128]⟩ .f32) (w : FVec Ideal ⟨2, ![B, 128]⟩ .f32) (p : Fin A) (q : Fin B) : EReal :=
  ((∑ k : Fin 128, a (ix2 p k) * a (ix2 p k)) + ∑ k : Fin 128, w (ix2 q k) * w (ix2 q k))
    - Ideal.ofBits .f32 0x40000000#32 * ∑ k : Fin 128, a (ix2 p k) * w (ix2 q k)

/-- An entry depends on `a` only through row `p` and on `w` only through row `q`: two pairs of families that agree on
    those two rows have the same entry there, whatever the rows are called in each. -/
theorem entry_congr {A B A' B' : Nat} (a : FVec Ideal ⟨2, ![A, 128]⟩ .f32) (w : FVec Ideal ⟨2, ![B, 128]⟩ .f32)
    (a' : FVec Ideal ⟨2, ![A', 128]⟩ .f32) (w' : FVec Ideal ⟨2, ![B', 128]⟩ .f32) (p : Fin A) (q : Fin B) (p' : Fin A') (q' : Fin B')
    (ha : ∀ k : Fin 128, a (ix2 p k) = a' (ix2 p' k)) (hw : ∀ k : Fin 128, w (ix2 q k) = w' (ix2 q' k)) :
    entry a w p q = entry a' w' p' q' := by
  unfold entry
  simp only [ha, hw]

/-- The whole table of 8192 vectors against 4096 vectors, as one function of the two arrays. -/
def table (a : FVec Ideal ⟨2, ![8192, 128]⟩ .f32) (w : FVec Ideal ⟨2, ![4096, 128]⟩ .f32) : FVec Ideal ⟨2, ![8192, 4096]⟩ .f32 :=
  fun i => entry a w (i 0) (i 1)

theorem table_apply (a : FVec Ideal ⟨2, ![8192, 128]⟩ .f32) (w : FVec Ideal ⟨2, ![4096, 128]⟩ .f32) (p : Fin 8192) (q : Fin 4096) :
    table a w (ix2 p q) = entry a w p q := rfl

end Cert.SqDist

end
-- ==== Proof.KernelBlock.lean ====
/-
  One grid step of the kernel computes a block of the squared-distance table.

  The body loads a block of 512 rows of the first array and all 4096 rows of the second. Its stored value at `(p, q)` is
  assembled from three sums over the 128 coordinates: the lane sum of the squared block along each row, laid out as a
  column and repeated along the 4096 columns, is `‖a_p‖²` at every `(p, q)`; the lane sum of the squared codebook, laid out
  as a row and repeated along the 512 rows, is `‖w_q‖²`; and the matrix product of the two (their entries first narrowed
  to a shorter float format, which changes nothing on the extended reals) into a zero accumulator contracts row `p`
  against row `q`, `⟨a_p, w_q⟩`. The body adds the first two and subtracts twice the third: the table's entry at `(p, q)`
  of the loaded block against the loaded codebook.
-/
import proofs.«103051_j29429115912593_1_alg».proof.Proof.Gen.KernelIdeal.Skeleton
import proofs.«103051_j29429115912593_1_alg».proof.Proof.SqDist
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.ValueIdx

namespace Cert.KernelIdeal.SqDistBlock

open Cert.KernelIdeal Cert.KernelIdeal.Gen

/-- A lane sum over the 128 coordinates of a 512-row block, laid out as a column and repeated along 4096 columns,
    reads at `(p, q)` the sum of row `p`. -/
theorem row_sum_as_column (v : FVec Ideal S512x128 .f32) (hr : S512x128.Reduces [1] S512) (hφ : FKind.Formats .f32)
    (hacc : (0x00000000#32 : BitVec 32) = FKind.add.neutral .f32 hφ) (hc : S512.ShapeCasts S512x1)
    (hb : S512x1.Broadcasts S512x4096) (p : Fin 512) (q : Fin 4096) :
    broadcastTo S512x4096 (shapeCast S512x1 (multiReduction .add [1] S512 v 0x00000000#32 hr hφ hacc) hc) hb (ix2 p q)
      = ∑ k : Fin 128, v (ix2 p k) := by
  refine (broadcastTo_apply _ hb (ix2 p q) (ix2 p (0 : Fin 1)) fun a => ?_).trans ?_
  · match a with
    | ⟨0, _⟩ => show p.val = if (512 : Nat) = 1 then 0 else p.val; rw [if_neg (by decide)]
    | ⟨1, _⟩ => show 0 = if (1 : Nat) = 1 then 0 else q.val; rw [if_pos rfl]
  refine (shapeCast_apply _ hc (ix2 p (0 : Fin 1)) (ix1 p) ?_).trans ?_
  · rw [Shape.rowMajor_val_one, Shape.rowMajor_val_two]
    show p.val = p.val * 1 + 0
    omega
  refine (Ideal.multiReduction_add_single v _ hr hφ hacc (ix1 p)).trans ?_
  exact Finset.sum_congr rfl fun k _ =>
    congrArg v (funext fun a => Fin.ext (by match a with | ⟨0, _⟩ => rfl | ⟨1, _⟩ => rfl))

/-- A lane sum over the 128 coordinates of the 4096-row codebook, laid out as a row and repeated along 512 rows, reads
    at `(p, q)` the sum of row `q`. -/
theorem row_sum_as_row (v : FVec Ideal S4096x128 .f32) (hr : S4096x128.Reduces [1] S4096) (hφ : FKind.Formats .f32)
    (hacc : (0x00000000#32 : BitVec 32) = FKind.add.neutral .f32 hφ) (hc : S4096.ShapeCasts S1x4096)
    (hb : S1x4096.Broadcasts S512x4096) (p : Fin 512) (q : Fin 4096) :
    broadcastTo S512x4096 (shapeCast S1x4096 (multiReduction .add [1] S4096 v 0x00000000#32 hr hφ hacc) hc) hb (ix2 p q)
      = ∑ k : Fin 128, v (ix2 q k) := by
  refine (broadcastTo_1b_ab_apply _ hb p q).trans ?_
  refine (shapeCast_a_1a_apply _ hc (0 : Fin 1) q).trans ?_
  refine (Ideal.multiReduction_add_single v _ hr hφ hacc (ix1 q)).trans ?_
  exact Finset.sum_congr rfl fun k _ =>
    congrArg v (funext fun a => Fin.ext (by match a with | ⟨0, _⟩ => rfl | ⟨1, _⟩ => rfl))

/-- The matrix product's output index `(p, q)` keeps its row on the left operand … -/
theorem left_row (i : S512x4096.Idx) (c : dot_S512x128_S4096x128_S512x4096_1_1_0_0_n_n.contr.Idx) :
    (dot_S512x128_S4096x128_S512x4096_1_1_0_0_n_n.lhsIdx i c 0).val = (i 0).val := by
  unfold DotDims.lhsIdx
  rw [dif_neg (show ¬(0 : Fin S512x128.rank) ∈ dot_S512x128_S4096x128_S512x4096_1_1_0_0_n_n.lhsBatch by decide),
    dif_pos (show (0 : Fin S512x128.rank) ∈ dot_S512x128_S4096x128_S512x4096_1_1_0_0_n_n.lhsNonContracting by decide)]
  rfl
/-- … and puts the contraction's coordinate on the left operand's second axis; -/
theorem left_coord (i : S512x4096.Idx) (c : dot_S512x128_S4096x128_S512x4096_1_1_0_0_n_n.contr.Idx) :
    (dot_S512x128_S4096x128_S512x4096_1_1_0_0_n_n.lhsIdx i c 1).val = (c ⟨0, by decide⟩).val :=
  dot_S512x128_S4096x128_S512x4096_1_1_0_0_n_n.lhsIdx_val_of_single rfl i c
/-- its column is the right operand's ROW (both operands are contracted along their second axis) … -/
theorem right_row (i : S512x4096.Idx) (c : dot_S512x128_S4096x128_S512x4096_1_1_0_0_n_n.contr.Idx) :
    (dot_S512x128_S4096x128_S512x4096_1_1_0_0_n_n.rhsIdx i c 0).val = (i 1).val := by
  unfold DotDims.rhsIdx
  rw [dif_neg (show ¬(0 : Fin S4096x128.rank) ∈ dot_S512x128_S4096x128_S512x4096_1_1_0_0_n_n.rhsBatch by decide),
    dif_pos (show (0 : Fin S4096x128.rank) ∈ dot_S512x128_S4096x128_S512x4096_1_1_0_0_n_n.rhsNonContracting by decide)]
  rfl
/-- … with the contraction's coordinate on the right operand's second axis too. -/
theorem right_coord (i : S512x4096.Idx) (c : dot_S512x128_S4096x128_S512x4096_1_1_0_0_n_n.contr.Idx) :
    (dot_S512x128_S4096x128_S512x4096_1_1_0_0_n_n.rhsIdx i c 1).val = (c ⟨0, by decide⟩).val :=
  dot_S512x128_S4096x128_S512x4096_1_1_0_0_n_n.rhsIdx_val_of_single rfl i c

/-- The matrix product of a 512-row block with the 4096-row codebook, both contracted along their 128 coordinates, into
    a zero accumulator: at `(p, q)` the inner product of row `p` with row `q`. -/
theorem rows_inner_product {φ₁ φ₂ : FTy} (l : FVec Ideal S512x128 φ₁) (r : FVec Ideal S4096x128 φ₂) (p : Fin 512) (q : Fin 4096) :
    matmul dot_S512x128_S4096x128_S512x4096_1_1_0_0_n_n none l r (constant S512x4096 .f32 0x00000000#32) (ix2 p q)
      = ∑ k : Fin 128, l (ix2 p k) * r (ix2 q k) := by
  simp only [matmul]
  rw [Ideal.matmul_constant_zero_apply,
    ← Equiv.sum_comp (ValueIdx.contrEquiv1 dot_S512x128_S4096x128_S512x4096_1_1_0_0_n_n 128 rfl rfl).symm]
  refine Finset.sum_congr rfl fun k _ => ?_
  have hk := ValueIdx.contrEquiv1_symm_val dot_S512x128_S4096x128_S512x4096_1_1_0_0_n_n 128 rfl rfl k
  have el : dot_S512x128_S4096x128_S512x4096_1_1_0_0_n_n.lhsIdx (ix2 p q)
      ((ValueIdx.contrEquiv1 dot_S512x128_S4096x128_S512x4096_1_1_0_0_n_n 128 rfl rfl).symm k) = ix2 p k :=
    funext fun a => Fin.ext (by
      match a with
      | ⟨0, _⟩ => exact left_row _ _
      | ⟨1, _⟩ => exact (left_coord _ _).trans hk)
  have er : dot_S512x128_S4096x128_S512x4096_1_1_0_0_n_n.rhsIdx (ix2 p q)
      ((ValueIdx.contrEquiv1 dot_S512x128_S4096x128_S512x4096_1_1_0_0_n_n 128 rfl rfl).symm k) = ix2 q k :=
    funext fun a => Fin.ext (by
      match a with
      | ⟨0, _⟩ => exact right_row _ _
      | ⟨1, _⟩ => exact (right_coord _ _).trans hk)
  rw [el, er]

/-- WHAT ONE GRID STEP STORES: at `(p, q)` of the 512 × 4096 block, the squared-distance entry of row `p` of the loaded
    block against row `q` of the loaded codebook. -/
theorem stored_entry (x0 : FVec Ideal S512x128 .f32) (x1 : FVec Ideal S4096x128 .f32) (p : Fin 512) (q : Fin 4096) :
    k0_pay1 (F := Ideal) x0 x1 (ix2 p q) = Cert.SqDist.entry x0 x1 p q := by
  unfold k0_pay1 Cert.SqDist.entry
  rw [subf_apply, addf_apply, mulf_apply]
  refine congrArg₂ (· - ·) (congrArg₂ (· + ·) ?_ ?_) (congrArg₂ (· * ·) ?_ ?_)
  · exact row_sum_as_column (mulf x0 x0) _ _ _ _ _ p q
  · exact row_sum_as_row (mulf x1 x1) _ _ _ _ _ p q
  · rfl
  · exact rows_inner_product _ _ p q

end Cert.KernelIdeal.SqDistBlock

end
-- ==== Proof.KernelArray.lean ====
/-
  From the blocks to the whole table.

  The grid has 16 steps. At step `t` the kernel sees rows `512·t … 512·t + 511` of the first array (its block index is
  `(t, 0)`), the whole second array (block index `(0, 0)` at every step) and writes rows `512·t … 512·t + 511` of the
  result (block index `(t, 0)`, all 4096 columns). Row `p` of the block loaded at step `t` is therefore row `512·t + p` of the
  first array, row `q` of the loaded codebook is row `q` of the second, and the entry stored at `(p, q)` is the table's entry
  at `(512·t + p, q)`: each step writes back its own block of ONE function of the two arrays. Row `r` of the result lies in the
  block of step `r / 512`, so the sixteen blocks cover the result, which ends holding the squared-distance table.
-/
import proofs.«103051_j29429115912593_1_alg».proof.Proof.Gen.KernelIdeal.Value
import proofs.«103051_j29429115912593_1_alg».proof.Proof.KernelBlock
import proofs.«103051_j29429115912593_1_alg».proof.Proof.SqDist
import Idealize.ShloMosaic.Lib.Pipeline.Value
import Idealize.ShloMosaic.Lib.ValueIdx

noncomputable section

open scoped BigOperators
open Idealize.ShloMosaic Idealize.ShloMosaic.TcCoe Idealize.SL.Sem Idealize.ShloMosaic.ValueIdx
open Idealize.ShloMosaic.Pipeline (Dat)

namespace Cert.KernelIdeal.SqDistArray

open Cert.KernelIdeal Cert.KernelIdeal.Gen Cert.KernelIdeal.Value

variable (m : (ℓ : Loc nD τ sig) → Buf (Elt Ideal) ℓ) (ρ : Dev nD → PrngReg)

theorem zero_offsets : (![0, 0] : Fin 2 → Nat) = fun _ => 0 := funext fun a => by fin_cases a <;> rfl

/-- The three index maps at step `t`, decided over the sixteen steps: the first array's block and the result's block are
    both block `t` along the rows and block `0` along the other axis; the second array's block is always block `(0, 0)`. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row `p` of the block of the first array loaded at step `t` is row `512·t + p` of that array. -/
theorem batch_block_row (c : Dev nD) (t : Fin cfg0.N) (p : Fin 512) (k : Fin 128) (r : Fin 8192)
    (hr : r.val = t.val * 512 + p.val) :
    iblk m c 0 t (ix2 p k) = V m c main_arg0 (ix2 r k) := by
  obtain ⟨e0, e1, -, -, -, -⟩ := block_indices t
  show V m c main_arg0 (((cfg0.win 0).blk t).view.emb (ix2 p k)) = V m c main_arg0 (ix2 r k)
  refine congrArg (V m c main_arg0) (funext fun a => Fin.ext ?_)
  match a with
  | ⟨0, _⟩ => show win0_0.index t (0 : Fin 2) * 512 + 1 * p.val = r.val; rw [e0, hr]; omega
  | ⟨1, _⟩ => show win0_0.index t (1 : Fin 2) * 128 + 1 * k.val = k.val; rw [e1]; omega

/-- Row `q` of the codebook loaded at any step is row `q` of the second array. -/
theorem code_block_row (c : Dev nD) (t : Fin cfg0.N) (q : Fin 4096) (k : Fin 128) :
    iblk m c 1 t (ix2 q k) = V m c main_arg1 (ix2 q k) := by
  obtain ⟨-, -, e2, e3, -, -⟩ := block_indices t
  show V m c main_arg1 (((cfg0.win 1).blk t).view.emb (ix2 q k)) = V m c main_arg1 (ix2 q k)
  refine congrArg (V m c main_arg1) (funext fun a => Fin.ext ?_)
  match a with
  | ⟨0, _⟩ => show win0_1.index t (0 : Fin 2) * 4096 + 1 * q.val = q.val; rw [e2]; omega
  | ⟨1, _⟩ => show win0_1.index t (1 : Fin 2) * 128 + 1 * k.val = k.val; rw [e3]; omega

/-- The entry a step stores at `(p, q)`, for a block and a codebook whose rows `p` and `q` are rows `r` and `s` of two
    whole arrays, is the table's entry at `(r, s)`. -/
theorem stored_is_table_entry (x0 : FVec Ideal S512x128 .f32) (x1 : FVec Ideal S4096x128 .f32)
    (a : FVec Ideal S8192x128 .f32) (w : FVec Ideal S4096x128 .f32) (p : Fin 512) (q : Fin 4096) (r : Fin 8192) (s : Fin 4096)
    (h0 : ∀ k : Fin 128, x0 (ix2 p k) = a (ix2 r k)) (h1 : ∀ k : Fin 128, x1 (ix2 q k) = w (ix2 s k)) :
    k0_pay1 (F := Ideal) x0 x1 (ix2 p q) = Cert.SqDist.table a w (ix2 r s) :=
  (Cert.KernelIdeal.SqDistBlock.stored_entry x0 x1 p q).trans
    ((Cert.SqDist.entry_congr x0 x1 a w p q r s h0 h1).trans (Cert.SqDist.table_apply a w r s).symm)

/-- WHAT STEP `t` WRITES BACK is block `t` of the squared-distance table of the two arrays as the kernel finds them. -/
theorem flushed_eq (c : Dev nD) (t : Fin cfg0.N) :
    (dats m 0 c).flushed 2 t
      = ((cfg0.win 2).blk t).view.read (Elt Ideal) (Cert.SqDist.table (V m c main_arg0) (V m c main_arg1)) := by
  rw [Value.flushed2]
  unfold out0_2
  rw [View.canon_unit_zero zero_offsets]
  simp only [View.ld_unit_zero (S := S512x128) zero_offsets, View.ld_unit_zero (S := S4096x128) zero_offsets]
  obtain ⟨-, -, -, -, e4, e5⟩ := block_indices t
  funext y
  show k0_pay1 (F := Ideal) (iblk m c 0 t) (iblk m c 1 t) y
    = Cert.SqDist.table (V m c main_arg0) (V m c main_arg1) (((cfg0.win 2).blk t).view.emb y)
  have hrow : ((((cfg0.win 2).blk t).view.emb y) 0).val = t.val * 512 + (y 0).val := by
    show win0_2.index t (0 : Fin 2) * 512 + 1 * (y 0).val = _; rw [e4]; omega
  have hcol : ((((cfg0.win 2).blk t).view.emb y) 1).val = (y 1).val := by
    show win0_2.index t (1 : Fin 2) * 4096 + 1 * (y 1).val = _; rw [e5]; omega
  refine (congrArg (k0_pay1 (F := Ideal) (iblk m c 0 t) (iblk m c 1 t)) (eq_ix2 y)).trans ?_
  refine (stored_is_table_entry (iblk m c 0 t) (iblk m c 1 t) (V m c main_arg0) (V m c main_arg1) (y 0) (y 1)
      ((((cfg0.win 2).blk t).view.emb y) 0) ((((cfg0.win 2).blk t).view.emb y) 1) (fun k => ?_) (fun k => ?_)).trans
    (congrArg (Cert.SqDist.table (V m c main_arg0) (V m c main_arg1)) (eq_ix2 (((cfg0.win 2).blk t).view.emb y)).symm)
  · exact batch_block_row m c t (y 0) k _ hrow
  · refine (code_block_row m c t (y 1) k).trans ?_
    exact congrArg (V m c main_arg1) (funext fun a => Fin.ext (by
      match a with
      | ⟨0, _⟩ => exact hcol.symm
      | ⟨1, _⟩ => rfl))

/-- An index of the result is in step `t`'s block iff each coordinate is in the block's range on its axis. -/
theorem mem_block (t : Fin cfg0.N) (i : S8192x4096.Idx) :
    i ∈ ((cfg0.win 2).blk t).view.set ↔ ∀ a : Fin 2, win0_2.index t a * S512x4096.size a ≤ (i a).val
      ∧ (i a).val < win0_2.index t a * S512x4096.size a + S512x4096.size a := by
  show i ∈ ((View.whole main_v0).slice (win0_2.rect t)).set ↔ _
  rw [View.set_slice_whole, Rect.mem_set_unit]
  exact Iff.rfl

/-- Every index of the result is in some step's block: row `r` in the block of step `r / 512`. -/
theorem covered (i : S8192x4096.Idx) :
    ∃ t : Fin cfg0.N, (cfg0.win 2).flush t = true ∧ i ∈ ((cfg0.win 2).blk t).view.set := by
  have hi0 : (i 0).val < 8192 := (i 0).isLt
  have hi1 : (i 1).val < 4096 := (i 1).isLt
  have hN : cfg0.N = 16 := N_0
  refine ⟨⟨(i 0).val / 512, by rw [hN]; omega⟩, flush0_2 _, ?_⟩
  obtain ⟨-, -, -, -, e4, e5⟩ := block_indices ⟨(i 0).val / 512, by rw [hN]; omega⟩
  rw [mem_block]
  intro a
  match a with
  | ⟨0, _⟩ =>
    show win0_2.index _ (0 : Fin 2) * 512 ≤ (i 0).val ∧ (i 0).val < win0_2.index _ (0 : Fin 2) * 512 + 512
    rw [e4]; show (i 0).val / 512 * 512 ≤ (i 0).val ∧ (i 0).val < (i 0).val / 512 * 512 + 512; omega
  | ⟨1, _⟩ =>
    show win0_2.index _ (1 : Fin 2) * 4096 ≤ (i 1).val ∧ (i 1).val < win0_2.index _ (1 : Fin 2) * 4096 + 4096
    rw [e5]; omega

/-- THE RESULT ARRAY after the run is the squared-distance table of the two argument arrays. -/
theorem final (c : Dev nD) :
    (dats m 0 c).arrAt 2 cfg0.N
      = Cert.SqDist.table (m ((c : Thread nD τ).loc main_arg0)) (m ((c : Thread nD τ).loc main_arg1)) :=
  (dats m 0 c).arrAt_eq_of_cover 2 (Cert.SqDist.table (V m c main_arg0) (V m c main_arg1))
    (fun t _ => flushed_eq m c t) covered

/-- The kernel's run, read: the result ends at the squared-distance table of the arguments, the arguments unchanged. -/
theorem run : θ_run defs (onTc (τ := τ) (main (F := Ideal))) ⟨m, fun _ => 0, ρ⟩ fun r => ∀ c : Dev nD,
      r.2.mem ((c : Thread nD τ).loc main_v0)
        = Cert.SqDist.table (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.SqDistArray

end
-- ==== Proof.ReferenceValue.lean ====
/-
  The reference computes the squared-distance table.

  The reference squares both arrays, sums each square along the 128 coordinates (from the initial value zero), lays the
  row norms out as a column and the codebook norms as a row, adds them over the 8192 × 4096 table, contracts the two
  arrays along their coordinate axis and subtracts twice that. Read at an index `(i₀, i₁)`, every layout step only
  renames which row is read: the column of row norms at `(i₀, i₁)` is the norm of row `i₀` of the first array, the row of
  codebook norms there is the norm of row `i₁` of the second, and the contraction there pairs those same two rows. So the
  reference's result at `(i₀, i₁)` is `(0 + ‖a_{i₀}‖²) + (0 + ‖w_{i₁}‖²) − 2 · ⟨a_{i₀}, w_{i₁}⟩`, which is the table's entry
  once the two zeros are dropped.
-/
import proofs.«103051_j29429115912593_1_alg».proof.Proof.Gen.ReferenceIdeal.Read
import proofs.«103051_j29429115912593_1_alg».proof.Proof.SqDist

noncomputable section

open scoped BigOperators
open Idealize.ShloMosaic Idealize.ShloMosaic.ValueIdx

namespace Cert.ReferenceIdeal.SqDistValue

open Cert.ReferenceIdeal Cert.ReferenceIdeal.Read

/-- Through the column layout and its broadcast, the row of the first array whose norm lands at `i` is row `i₀`. -/
theorem batch_row (i : S8192x4096.Idx) (k : Fin 128) :
    idx_main_v1 (idx_main_v2 (idx_main_v7 i)) k = ix2 (i 0) k :=
  funext fun a => Fin.ext (by match a with | ⟨0, _⟩ => rfl | ⟨1, _⟩ => rfl)

/-- Through the row layout and its broadcast, the row of the second array whose norm lands at `i` is row `i₁`. -/
theorem code_row (i : S8192x4096.Idx) (k : Fin 128) :
    idx_main_v4 (idx_main_v6 (idx_main_v8 i)) k = ix2 (i 1) k :=
  funext fun a => Fin.ext (by match a with | ⟨0, _⟩ => rfl | ⟨1, _⟩ => rfl)

/-- The contraction at `i` reads row `i₀` of the first array … -/
theorem dot_left (i : S8192x4096.Idx) (k : Fin 128) : lidx_main_v5 i k = ix2 (i 0) k :=
  funext fun a => Fin.ext (by match a with | ⟨0, _⟩ => rfl | ⟨1, _⟩ => rfl)

/-- … against row `i₁` of the second. -/
theorem dot_right (i : S8192x4096.Idx) (k : Fin 128) : ridx_main_v5 i k = ix2 (i 1) k :=
  funext fun a => Fin.ext (by match a with | ⟨0, _⟩ => rfl | ⟨1, _⟩ => rfl)

/-- The reference's result, as a function of its two arguments, is the squared-distance table. -/
theorem result_eq_table (x0 : FVec Ideal S8192x128 .f32) (x1 : FVec Ideal S4096x128 .f32) :
    val_main_v12 (F := Ideal) x0 x1 = Cert.SqDist.table x0 x1 := by
  funext i
  rw [val_main_v12_apply, val_main_v9_apply, val_main_v7_apply, val_main_v2_apply, val_main_v1_apply,
    val_main_v8_apply, val_main_v6_apply, val_main_v4_apply, val_main_v11_apply, val_main_v10_apply,
    val_main_cst_1_apply, val_main_v5_apply, val_main_cst_apply, val_main_cst_0_apply]
  simp only [val_main_v0_apply, val_main_v3_apply, batch_row, code_row, dot_left, dot_right,
    Ideal.mulf_def, Ideal.addf_def, Ideal.subf_def, Ideal.ofBits_def, Ideal.ofBits_zero_f32, zero_add]
  rfl

end Cert.ReferenceIdeal.SqDistValue

end
-- ==== Proof.lean ====
/-
  The kernel and its reference compute the same table of squared Euclidean distances.

  For 8192 vectors `a_p` and 4096 vectors `w_q` in 128 coordinates, both programs produce
  `‖a_p‖² + ‖w_q‖² − 2 · ⟨a_p, w_q⟩` at `(p, q)`. The kernel does it block by block, 512 rows of the table at each of its
  16 grid steps, with the inner products taken by a matrix product on operands narrowed to a shorter float format;
  the reference does it in one sweep over the whole arrays. On the extended reals the narrowing is the identity and
  a sum does not depend on how its terms are grouped into blocks, and both programs add the two squared norms first
  and subtract the doubled inner product last, with the same word for the factor two. So the two results agree
  entry by entry, with no condition on the inputs: the precondition that the inputs are finite is never opened.

  `Cert.SqDist.table` (Proof/SqDist.lean) is the common function; Proof/KernelBlock.lean reads one grid step's stored block,
  Proof/KernelArray.lean assembles the sixteen blocks into the result array, Proof/ReferenceValue.lean reads the
  reference's result. The idealized kernel is the kernel's own text read on the extended reals — nothing was rewritten —,
  so there is nothing to preserve. Each program terminates without fault and leaves its arguments as they were.
-/
import proofs.«103051_j29429115912593_1_alg».proof.Defs
import proofs.«103051_j29429115912593_1_alg».proof.Proof.Gen.Kernel
import proofs.«103051_j29429115912593_1_alg».proof.Proof.Gen.Kernel.Frame
import proofs.«103051_j29429115912593_1_alg».proof.Proof.Gen.KernelIdeal
import proofs.«103051_j29429115912593_1_alg».proof.Proof.Gen.KernelIdeal.Frame
import proofs.«103051_j29429115912593_1_alg».proof.Proof.Gen.KernelIdeal.Value
import proofs.«103051_j29429115912593_1_alg».proof.Proof.Gen.ReferenceIdeal
import proofs.«103051_j29429115912593_1_alg».proof.Proof.Gen.ReferenceIdeal.Run
import proofs.«103051_j29429115912593_1_alg».proof.Proof.Gen.ReferenceIdeal.Read
import proofs.«103051_j29429115912593_1_alg».proof.Proof.Gen.Pre_finite_inputs
import proofs.«103051_j29429115912593_1_alg».proof.Proof.SqDist
import proofs.«103051_j29429115912593_1_alg».proof.Proof.KernelArray
import proofs.«103051_j29429115912593_1_alg».proof.Proof.ReferenceValue
import Idealize.ShloMosaic.Adequacy
import Idealize.ShloMosaic.Init

noncomputable section

namespace Cert.Proof

open Idealize.ShloMosaic Idealize.ShloMosaic.TcCoe Idealize.SL.Sem

/-- The kernel, word for word, terminates without fault and leaves its two arguments unchanged. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference terminates with its result computed and its two arguments unchanged; the result is not needed here. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealized kernel is the kernel's own text: no operation was rewritten, so nothing is owed. -/
theorem preserves : Cert.preserves_Kernel_KernelIdeal := trivial

/-- From memories that agree on the two arguments, the kernel's result array and the reference's both end holding the
    squared-distance table of those arguments. -/
theorem algebraic : Cert.algebraic_KernelIdeal_ReferenceIdeal := by
  intro m ρ m' ρ' _ hagree
  refine ⟨fun c => Cert.SqDist.table (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.SqDistArray.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, Cert.ReferenceIdeal.SqDistValue.result_eq_table, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
